-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S16384x2048 : Shape := ⟨2, ![16384, 2048]⟩
abbrev S16384 : Shape := ⟨1, ![16384]⟩
abbrev S2048x16384 : Shape := ⟨2, ![2048, 16384]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384 : S_.BroadcastsInDim S16384 (![] : Fin 0 → Fin S16384.rank)
  reducesTo_S16384_S_d0 : S16384.ReducesTo [0] S_
  bcast_S_S2048x16384 : S_.BroadcastsInDim S2048x16384 (![] : Fin 0 → Fin S2048x16384.rank)
  reducesTo_S2048x16384_S_d0_1 : S2048x16384.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x16384 1) : IVec S_ 1 :=
  let main_c_5 : IVec S_ 1 := constantI S_ 1 1#1
  let main_v17 : IVec S_ 1 := (fun x v => Host.reduce IntOp.andi x v reducesTo_S2048x16384_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8192x2048 .f32) (main_arg1 : FVec F S16384x2048 .f32) (main_arg2 : FVec F S16384 .f32) (main_arg3 : FVec F S2048x16384 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S2048x16384 .f32 := Host.absf main_arg3
  let main_cst_4 : FVec F S_ .f32 := constant S_ .f32 0x7F800000#32
  let main_v15 : FVec F S2048x16384 .f32 := broadcastInDim S2048x16384 ![] bcast_S_S2048x16384 main_cst_4
  let main_v16 : IVec S2048x16384 1 := cmpf .olt main_v14 main_v15
  fn_part1 (F := F) main_arg4 main_v13 main_v16
-- ==== Kernel.lean ====
abbrev S8192x2048 : Shape := ⟨2, ![8192, 2048]⟩
abbrev S16384x2048 : Shape := ⟨2, ![16384, 2048]⟩
abbrev S16384 : Shape := ⟨1, ![16384]⟩
abbrev S2048x16384 : Shape := ⟨2, ![2048, 16384]⟩
abbrev S2048 : Shape := ⟨1, ![2048]⟩
abbrev S1x16384 : Shape := ⟨2, ![1, 16384]⟩
abbrev S1x2048 : Shape := ⟨2, ![1, 2048]⟩
abbrev S512x2048 : Shape := ⟨2, ![512, 2048]⟩
abbrev S2048x2048 : Shape := ⟨2, ![2048, 2048]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S2048, .f32⟩
  | .hbm, ⟨5, _⟩ => ⟨S16384x2048, .bf16⟩
  | .hbm, ⟨6, _⟩ => ⟨S2048x16384, .bf16⟩
  | .hbm, ⟨7, _⟩ => ⟨S1x16384, .f32⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c0_i32_10 : BitVec 32 := 0#32
  let v17 : BitVec 1 := Scalar.cmpi .eq arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c0_i32_12 : BitVec 32 := 0#32
  let v20 : BitVec 1 := Scalar.cmpi .ne arg1 c0_i32_12
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S16384_S1x16384 : S16384.ShapeCasts S1x16384
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S16384x2048.size a
  hwx0_1 : ∀ i : grid0.Coords, EltTy.bits .bf16 = 32 ∨ (Rect.block (s := S16384x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x16384.size a
  hwx0_3 : ∀ i : grid0.Coords, EltTy.bits .bf16 = 32 ∨ (Rect.block (s := S2048x16384) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S8192x2048 : Shape := ⟨2, ![8192, 2048]⟩
abbrev S16384x2048 : Shape := ⟨2, ![16384, 2048]⟩
abbrev S16384 : Shape := ⟨1, ![16384]⟩
abbrev S2048x16384 : Shape := ⟨2, ![2048, 16384]⟩
abbrev S2048 : Shape := ⟨1, ![2048]⟩
abbrev S1x2048 : Shape := ⟨2, ![1, 2048]⟩
abbrev S8192x16384 : Shape := ⟨2, ![8192, 16384]⟩
abbrev S1x16384 : Shape := ⟨2, ![1, 16384]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S2048x16384, .f32⟩
  | .hbm, ⟨9, _⟩ => ⟨S8192x16384, .f32⟩
  | .hbm, ⟨10, _⟩ => ⟨S1x16384, .f32⟩
  | .hbm, ⟨11, _⟩ => ⟨S8192x16384, .f32⟩
  | .hbm, ⟨12, _⟩ => ⟨S8192x16384, .f32⟩
  | .hbm, ⟨13, _⟩ => ⟨S_, .f32⟩
  | .hbm, ⟨14, _⟩ => ⟨S8192x16384, .f32⟩
  | .hbm, ⟨15, _⟩ => ⟨S8192x16384, .f32⟩
  | .hbm, ⟨16, _⟩ => ⟨S_, .f32⟩
  | .hbm, ⟨17, _⟩ => ⟨S8192x16384, .f32⟩
  | .hbm, ⟨18, _⟩ => ⟨S8192x16384, .i1⟩
  | .hbm, ⟨19, _⟩ => ⟨S8192x16384, .f32⟩
  | .hbm, ⟨20, _⟩ => ⟨S8192x16384, .f32⟩
  | .hbm, ⟨21, _⟩ => ⟨S16384x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S16384x2048_S2048x16384_1_0 : S16384x2048.Transposes [1, 0] S2048x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  transposes_S2048x16384_S16384x2048_1_0 : S2048x16384.Transposes [1, 0] S16384x2048
  dot_S8192x2048_S2048x16384_S8192x16384_1_0_0_1_n_n_wf : DotDims.WF S8192x2048 S2048x16384 S8192x16384 [1] [0] [0] [1] [] []
  dot_S8192x16384_S16384x2048_S8192x2048_1_0_0_1_n_n_wf : DotDims.WF S8192x16384 S16384x2048 S8192x2048 [1] [0] [0] [1] [] []

variable [Facts₀]

def dot_S8192x2048_S2048x16384_S8192x16384_1_0_0_1_n_n : DotDims S8192x2048 S2048x16384 S8192x16384 where
  lhsContracting := [1]
  rhsContracting := [0]
  lhsNonContracting := [0]
  rhsNonContracting := [1]
  lhsBatch := []
  rhsBatch := []
  wf := dot_S8192x2048_S2048x16384_S8192x16384_1_0_0_1_n_n_wf
def dot_S8192x16384_S16384x2048_S8192x2048_1_0_0_1_n_n : DotDims S8192x16384 S16384x2048 S8192x2048 where
  lhsContracting := [1]
  rhsContracting := [0]
  lhsNonContracting := [0]
  rhsNonContracting := [1]
  lhsBatch := []
  rhsBatch := []
  wf := dot_S8192x16384_S16384x2048_S8192x2048_1_0_0_1_n_n_wf

class Facts : Prop extends Facts₀ where

variable [Facts]
-- ==== Proof.KernelBody.lean ====
import proofs.«127214_g47287589929625_cont_8to1_c_1111_23_alg».proof.Proof.Gen.Kernel.Frame
import proofs.«127214_g47287589929625_cont_8to1_c_1111_23_alg».proof.Proof.Gen.Kernel.Skeleton
import proofs.«127214_g47287589929625_cont_8to1_c_1111_23_alg».proof.Proof.Gen.Kernel.Points
import proofs.«127214_g47287589929625_cont_8to1_c_1111_23_alg».proof.Proof.Gen.Kernel.Launch
import Idealize.ShloMosaic.Lib.Pipeline.FrameBody
import Idealize.ShloMosaic.Lib.Pipeline.Value
import Idealize.ShloMosaic.Lib.Tactic

set_option maxRecDepth 16384

noncomputable section

/-!
  The kernel body at one grid point, and the region's run.

  Point t of the 16 × 8 grid has row tile t / 8 and chunk t % 8.  At chunk 0 the body stores the centred row tile
  (x - b_dec, as bf16) into its scratch, then writes (hidden chunk) · W_dec-chunkᵀ + b_dec into the output block; at
  every other chunk it reads the scratch as the point before left it and adds that chunk's product into the output
  block, which the pipeline writes back after chunk 7 only.  So the scratch after point t is the centred row tile
  of t's row tile (`scrAt`), and the output block after point t is given by recursion on t (`outAt`).
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first branch's condition as the body computes it from the coordinates: the chunk index is 0. -/
abbrev condZ (i : grid0.Coords) : Prop := (Scalar.cmpi .ne (Scalar.extui (Scalar.cmpi .eq (BitVec.ofNat 32 (i 1).val) 0#32)) 0#32) = 1#1

theorem hcondZ : ∀ t : Fin cfg0.N, condZ (grid0.coords t) ↔ t.val % 8 = 0 :=
  (by decide +kernel : ∀ t : Fin grid0.N, condZ (grid0.coords t) ↔ t.val % 8 = 0)
theorem hcond2 : ∀ t : Fin cfg0.N, k0_cond2 (grid0.coords t) = 1#1 ↔ t.val % 8 = 0 :=
  (by decide +kernel : ∀ t : Fin grid0.N, k0_cond2 (grid0.coords t) = 1#1 ↔ t.val % 8 = 0)
theorem hcond3 : ∀ t : Fin cfg0.N, k0_cond3 (grid0.coords t) = 1#1 ↔ ¬t.val % 8 = 0 :=
  (by decide +kernel : ∀ t : Fin grid0.N, k0_cond3 (grid0.coords t) = 1#1 ↔ ¬t.val % 8 = 0)
/-- Exactly one of the two output stores runs at every point: the output window is never idle. -/
theorem live5 : ∀ t : Fin cfg0.N, cfg0.idle 5 (grid0.coords t) = false := by decide +kernel

theorem hz2 : (![0, 0] : Fin 2 → ℕ) = fun _ => 0 := by funext a; fin_cases a <;> rfl

/-! ## The body on any staging memrefs -/

set_option maxHeartbeats 1000000 in
/-- Chunk 0: from the five input blocks, the output buffer and the scratch at anything, the body leaves the scratch
    at the centred row tile and the output buffer at that chunk's product plus the bias row. -/
theorem runA (c : Dev nD) (i : grid0.Coords) (arg2 : Memref sig .tc .vmem S512x2048 .f32) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (hc0 : condZ i) (hc1 : k0_cond2 i = 1#1) (hc2 : ¬k0_cond3 i = 1#1)
    (x0 : Vec F S512x2048 .f32) (x1 : Vec F S2048x2048 .bf16) (x2 : Vec F S1x2048 .f32) (x3 : Vec F S2048x2048 .bf16) (x4 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k0_pay3 (k0_pay1 x0 x4) x1 x2 x3 x4)
            ∗ owns (c : Thread nD τ) arg8 fullShare (k0_pay1 x0 x4)) -∗ K ⟨⟩))
      ⊢ wp frame (wpE (defs₀ (F := F)) Variants.none c none) E (cc0__fused_sae_kernel i arg2 harg2 arg3 harg3 arg4 harg4 arg5 harg5 arg6 harg6 arg7 harg7 arg8 harg8) K := by
  simp only [cc0__fused_sae_kernel_eq_skeleton]; unfold cc0__fused_sae_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [View.read_writes_eq_canon _ _ _ (fun y => ⟨_, List.mem_singleton_self _, View.mem_set_unit_zero hz2 inb_S512x2048_S512x2048_0_0 y⟩), View.canon_unit_zero hz2]
    sl_unfold_words
    rw [View.readCov_unit_zero _ hz2]
    simp only [View.readAt_eq_ld, harg2.read_unread, harg3.read_unread, harg4.read_unread, harg5.read_unread, harg6.read_unread,
      View.ld_unit_zero (S := S512x2048) hz2, View.ld_unit_zero (S := S2048x2048) hz2, View.ld_unit_zero (S := S1x2048) hz2]
  iexists _; isplitr
  swap; · iexact H8
  ipureintro
  sl_unfold_words
  rw [View.read_writes_eq_canon _ _ _ (fun y => ⟨_, List.mem_singleton_self _, View.mem_set_unit_zero hz2 inb_S512x2048_S512x2048_0_0 y⟩), View.canon_unit_zero hz2]
  simp only [View.readAt_eq_ld, harg2.read_unread, harg6.read_unread,
    View.ld_unit_zero (S := S512x2048) hz2, View.ld_unit_zero (S := S1x2048) hz2]

set_option maxHeartbeats 1000000 in
/-- Any later chunk: the scratch is read as found (`a`) and kept, and the output buffer, found at `acc`, is left at
    `acc` plus the chunk's product. -/
theorem runB (c : Dev nD) (i : grid0.Coords) (arg2 : Memref sig .tc .vmem S512x2048 .f32) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (hc0 : ¬condZ i) (hc1 : ¬k0_cond2 i = 1#1) (hc2 : k0_cond3 i = 1#1)
    (x0 : Vec F S512x2048 .f32) (x1 : Vec F S2048x2048 .bf16) (x2 : Vec F S1x2048 .f32) (x3 : Vec F S2048x2048 .bf16) (x4 : Vec F S1x2048 .f32)
    (acc : Vec F S512x2048 .f32) (a : Vec F S512x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare acc ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k0_pay4 a x1 x2 x3 acc)
            ∗ owns (c : Thread nD τ) arg8 fullShare a) -∗ K ⟨⟩))
      ⊢ wp frame (wpE (defs₀ (F := F)) Variants.none c none) E (cc0__fused_sae_kernel i arg2 harg2 arg3 harg3 arg4 harg4 arg5 harg5 arg6 harg6 arg7 harg7 arg8 harg8) K := by
  simp only [cc0__fused_sae_kernel_eq_skeleton]; unfold cc0__fused_sae_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [View.read_writes_eq_canon _ _ _ (fun y => ⟨_, List.mem_singleton_self _, View.mem_set_unit_zero hz2 inb_S512x2048_S512x2048_0_0 y⟩), View.canon_unit_zero hz2]
    sl_unfold_words
    simp only [View.readAt_eq_ld, harg3.read_unread, harg4.read_unread, harg5.read_unread, harg7.read_unread, harg8.read_unread,
      View.ld_unit_zero (S := S512x2048) hz2, View.ld_unit_zero (S := S2048x2048) hz2, View.ld_unit_zero (S := S1x2048) hz2]
  iexists _; isplitr; · ipureintro; exact harg8.read_unread _
  iexact H8

/-! ## What the scratch and the output block hold after each point -/

variable (m : (ℓ : Loc nD τ sig) → Buf (Elt F) ℓ) (ρ : Dev nD → PrngReg)

/-- The first point of `t`'s row tile: chunk 0 of the same tile. -/
def t0 (t : Fin cfg0.N) : Fin cfg0.N := ⟨8 * (t.val / 8), Nat.lt_of_le_of_lt (Nat.mul_div_le t.val 8) t.isLt⟩

theorem t0_of_mod (t : Fin cfg0.N) (h : t.val % 8 = 0) : t0 t = t := Fin.ext (by show 8 * (t.val / 8) = t.val; omega)

theorem t0_pred (t : Fin cfg0.N) (h : ¬t.val % 8 = 0) :
    t0 ⟨t.val - 1, Nat.lt_of_le_of_lt (Nat.sub_le _ _) t.isLt⟩ = t0 t :=
  Fin.ext (by show 8 * ((t.val - 1) / 8) = 8 * (t.val / 8); omega)

/-- The scratch after point `t`: the centred row tile, stored at the tile's first point and kept since. -/
def scrAt (c : Dev nD) (t : Fin cfg0.N) : Vec F S512x2048 .bf16 := k0_pay1 (iblk m c 0 (t0 t)) (iblk m c 4 (t0 t))

theorem scrAt_A (c : Dev nD) (t : Fin cfg0.N) (h : t.val % 8 = 0) : scrAt m c t = k0_pay1 (iblk m c 0 t) (iblk m c 4 t) := by
  unfold scrAt; rw [t0_of_mod t h]

theorem scrAt_pred (c : Dev nD) (t : Fin cfg0.N) (h : ¬t.val % 8 = 0) :
    scrAt m c ⟨t.val - 1, Nat.lt_of_le_of_lt (Nat.sub_le _ _) t.isLt⟩ = scrAt m c t := by
  unfold scrAt; rw [t0_pred t h]

/-- The output block after position `n`: at chunk 0 the chunk's product plus the bias row, at a later chunk what
    the point before left plus the chunk's product. -/
def outAt (c : Dev nD) : (n : ℕ) → n < cfg0.N → Vec F S512x2048 .f32
  | 0, hn => k0_pay3 (scrAt m c ⟨0, hn⟩) (iblk m c 1 ⟨0, hn⟩) (iblk m c 2 ⟨0, hn⟩) (iblk m c 3 ⟨0, hn⟩) (iblk m c 4 ⟨0, hn⟩)
  | n + 1, hn =>
    if (n + 1) % 8 = 0 then
      k0_pay3 (scrAt m c ⟨n + 1, hn⟩) (iblk m c 1 ⟨n + 1, hn⟩) (iblk m c 2 ⟨n + 1, hn⟩) (iblk m c 3 ⟨n + 1, hn⟩) (iblk m c 4 ⟨n + 1, hn⟩)
    else
      k0_pay4 (scrAt m c ⟨n + 1, hn⟩) (iblk m c 1 ⟨n + 1, hn⟩) (iblk m c 2 ⟨n + 1, hn⟩) (iblk m c 3 ⟨n + 1, hn⟩) (outAt c n (Nat.lt_of_succ_lt hn))

theorem outAt_A (c : Dev nD) (t : Fin cfg0.N) (h : t.val % 8 = 0) :
    outAt m c t.val t.isLt = k0_pay3 (scrAt m c t) (iblk m c 1 t) (iblk m c 2 t) (iblk m c 3 t) (iblk m c 4 t) := by
  obtain ⟨n, hn⟩ := t
  cases n with
  | zero => rfl
  | succ n => exact (if_pos h).trans rfl

theorem outAt_B (c : Dev nD) (t : Fin cfg0.N) (h : ¬t.val % 8 = 0) :
    outAt m c t.val t.isLt = k0_pay4 (scrAt m c t) (iblk m c 1 t) (iblk m c 2 t) (iblk m c 3 t)
      (outAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant and the proof data -/

/-- The scratch operand, whole. -/
abbrev scM : Memref sig .tc .vmem S512x2048 .bf16 := Memref.whole cc0_scratch0

/-- The class invariant with the scratch as a memref owned at some contents. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before position `n`: before the first point the scratch holds anything; afterwards what the point before left. -/
def PhiS (c : Dev nD) : (n : ℕ) → n ≤ cfg0.N → sProp 𝕄
  | 0, _ => Pipeline.ΦA spec0 c
  | n + 1, hn => iprop(iprop(owns (c : Thread nD τ) scM fullShare (scrAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c ⟨n - 1, by omega⟩)) ∗ (∃ r, prngReg c r)) := by
  cases n with
  | zero => exact absurd rfl hz
  | succ n => rfl

/-- The proof data on core `c`: the arrays as the region finds them; every input's buffer left at its block; the
    output's buffer at `outAt`; the scratch tracked by `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later chunk the output's buffer was not written back at the point before: it holds what that point left. -/
theorem before0_5 (c : Dev nD) (t : Fin cfg0.N) (hz : t.val ≠ 0) (h : ¬t.val % 8 = 0) (d) :
    (dats m 0 c).before 5 t d = outAt m c (t.val - 1) (Nat.lt_of_le_of_lt (Nat.sub_le _ _) t.isLt) := by
  have hfl : (cfg0.win 5).flush ⟨t.val - 1, Nat.lt_of_le_of_lt (Nat.sub_le _ _) t.isLt⟩ = false :=
    Bool.eq_false_iff.mpr fun hf => by
      have := (flush0_5 ⟨t.val - 1, Nat.lt_of_le_of_lt (Nat.sub_le _ _) t.isLt⟩).mp hf
      dsimp only at this; omega
  rw [(dats m 0 c).before_of_pos 5 t hz ((cfg0.win 5).fetch_out rfl t), hfl, if_neg Bool.false_ne_true]
  unfold Dat.left; rw [live5]; dsimp only
  unfold Dat.kept
  rw [Dat.before_out_kept.fill_of_clip_none' 5 _ (fun a => rfl) d ((dats m 0 c).after 5 _) , Pipeline.Window.fill_cut, after0_5]

/-! ## The body obligation, at a generic point -/

/-- Each window's current staging memref at point `t`, as the pipeline passes it. -/
abbrev ms0 (t : Fin cfg0.N) : Memref sig .tc .vmem S512x2048 .f32 := win0_0.stage (cfg0.slots t 0)
abbrev ms1 (t : Fin cfg0.N) : Memref sig .tc .vmem S2048x2048 .bf16 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x2048 .bf16 := win0_3.stage (cfg0.slots t 3)
abbrev ms4 (t : Fin cfg0.N) : Memref sig .tc .vmem S1x2048 .f32 := win0_4.stage (cfg0.slots t 4)
abbrev ms5 (t : Fin cfg0.N) : Memref sig .tc .vmem S512x2048 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0_0]
theorem leaves0_1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after0_1]
theorem leaves0_2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after0_2]
theorem leaves0_3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl, after0_3]
theorem leaves0_4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl, after0_4]
theorem leaves0_5 (c : Dev nD) (t : Fin cfg0.N) :
    (dats m 0 c).leavesExact 5 t = owns (c : Thread nD τ) (ms5 t) fullShare (outAt m c t.val t.isLt) := by
  unfold Dat.leavesExact; rw [live5 t, after0_5]

set_option maxHeartbeats 4800000 in
/-- The body at any point: the inputs' memrefs hold their blocks; at chunk 0 the scratch and the output's buffer hold
    anything and the first run applies; at a later chunk they hold what the point before left and the second applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  by_cases h0 : t.val % 8 = 0
  · rw [outAt_A m c t h0, scrAt_A m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcondZ t).mpr h0) ((hcond2 t).mpr h0) (fun h => (hcond3 t).mp h h0)
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcondZ t).mpr h0) ((hcond2 t).mpr h0) (fun h => (hcond3 t).mp h h0)
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    simp only [before0_5 m c t hz h0]
    rw [outAt_B m c t h0, PhiS_castSucc m c t, PhiS_pos m c _ _ hz, scrAt_pred m c t h0]
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (fun h => h0 ((hcondZ t).mp h)) (fun h => h0 ((hcond2 t).mp h)) ((hcond3 t).mpr h0)
      (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨HS, Hg⟩
  isplitl [HS]
  · iexists _; iexact HS
  iexact Hg

/-! ## The run and the frame -/

set_option backward.isDefEq.respectTransparency.types false in
/-- Every weakly fair execution of @main terminates without a fault, every array of the pipeline ends at what the
    proof data give (the output array: the blocks written back after each tile's last chunk), and every other
    unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.KernelIdealBody.lean ====
import proofs.«127214_g47287589929625_cont_8to1_c_1111_23_alg».proof.Proof.Gen.KernelIdeal.Frame
import proofs.«127214_g47287589929625_cont_8to1_c_1111_23_alg».proof.Proof.Gen.KernelIdeal.Skeleton
import proofs.«127214_g47287589929625_cont_8to1_c_1111_23_alg».proof.Proof.Gen.KernelIdeal.Points
import proofs.«127214_g47287589929625_cont_8to1_c_1111_23_alg».proof.Proof.Gen.KernelIdeal.Launch
import Idealize.ShloMosaic.Lib.Pipeline.FrameBody
import Idealize.ShloMosaic.Lib.Pipeline.Value
import Idealize.ShloMosaic.Lib.Tactic

set_option maxRecDepth 16384

noncomputable section

/-!
  The kernel body at one grid point, and the region's run.

  Point t of the 16 × 8 grid has row tile t / 8 and chunk t % 8.  At chunk 0 the body stores the centred row tile
  (x - b_dec, as bf16) into its scratch, then writes (hidden chunk) · W_dec-chunkᵀ + b_dec into the output block; at
  every other chunk it reads the scratch as the point before left it and adds that chunk's product into the output
  block, which the pipeline writes back after chunk 7 only.  So the scratch after point t is the centred row tile
  of t's row tile (`scrAt`), and the output block after point t is given by recursion on t (`outAt`).
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first branch's condition as the body computes it from the coordinates: the chunk index is 0. -/
abbrev condZ (i : grid0.Coords) : Prop := (Scalar.cmpi .ne (Scalar.extui (Scalar.cmpi .eq (BitVec.ofNat 32 (i 1).val) 0#32)) 0#32) = 1#1

theorem hcondZ : ∀ t : Fin cfg0.N, condZ (grid0.coords t) ↔ t.val % 8 = 0 :=
  (by decide +kernel : ∀ t : Fin grid0.N, condZ (grid0.coords t) ↔ t.val % 8 = 0)
theorem hcond2 : ∀ t : Fin cfg0.N, k0_cond2 (grid0.coords t) = 1#1 ↔ t.val % 8 = 0 :=
  (by decide +kernel : ∀ t : Fin grid0.N, k0_cond2 (grid0.coords t) = 1#1 ↔ t.val % 8 = 0)
theorem hcond3 : ∀ t : Fin cfg0.N, k0_cond3 (grid0.coords t) = 1#1 ↔ ¬t.val % 8 = 0 :=
  (by decide +kernel : ∀ t : Fin grid0.N, k0_cond3 (grid0.coords t) = 1#1 ↔ ¬t.val % 8 = 0)
/-- Exactly one of the two output stores runs at every point: the output window is never idle. -/
theorem live5 : ∀ t : Fin cfg0.N, cfg0.idle 5 (grid0.coords t) = false := by decide +kernel

theorem hz2 : (![0, 0] : Fin 2 → ℕ) = fun _ => 0 := by funext a; fin_cases a <;> rfl

/-! ## The body on any staging memrefs -/

set_option maxHeartbeats 1000000 in
/-- Chunk 0: from the five input blocks, the output buffer and the scratch at anything, the body leaves the scratch
    at the centred row tile and the output buffer at that chunk's product plus the bias row. -/
theorem runA (c : Dev nD) (i : grid0.Coords) (arg2 : Memref sig .tc .vmem S512x2048 .f32) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (hc0 : condZ i) (hc1 : k0_cond2 i = 1#1) (hc2 : ¬k0_cond3 i = 1#1)
    (x0 : Vec F S512x2048 .f32) (x1 : Vec F S2048x2048 .bf16) (x2 : Vec F S1x2048 .f32) (x3 : Vec F S2048x2048 .bf16) (x4 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k0_pay3 (k0_pay1 x0 x4) x1 x2 x3 x4)
            ∗ owns (c : Thread nD τ) arg8 fullShare (k0_pay1 x0 x4)) -∗ K ⟨⟩))
      ⊢ wp frame (wpE (defs₀ (F := F)) Variants.none c none) E (cc0__fused_sae_kernel i arg2 harg2 arg3 harg3 arg4 harg4 arg5 harg5 arg6 harg6 arg7 harg7 arg8 harg8) K := by
  simp only [cc0__fused_sae_kernel_eq_skeleton]; unfold cc0__fused_sae_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [View.read_writes_eq_canon _ _ _ (fun y => ⟨_, List.mem_singleton_self _, View.mem_set_unit_zero hz2 inb_S512x2048_S512x2048_0_0 y⟩), View.canon_unit_zero hz2]
    sl_unfold_words
    rw [View.readCov_unit_zero _ hz2]
    simp only [View.readAt_eq_ld, harg2.read_unread, harg3.read_unread, harg4.read_unread, harg5.read_unread, harg6.read_unread,
      View.ld_unit_zero (S := S512x2048) hz2, View.ld_unit_zero (S := S2048x2048) hz2, View.ld_unit_zero (S := S1x2048) hz2]
  iexists _; isplitr
  swap; · iexact H8
  ipureintro
  sl_unfold_words
  rw [View.read_writes_eq_canon _ _ _ (fun y => ⟨_, List.mem_singleton_self _, View.mem_set_unit_zero hz2 inb_S512x2048_S512x2048_0_0 y⟩), View.canon_unit_zero hz2]
  simp only [View.readAt_eq_ld, harg2.read_unread, harg6.read_unread,
    View.ld_unit_zero (S := S512x2048) hz2, View.ld_unit_zero (S := S1x2048) hz2]

set_option maxHeartbeats 1000000 in
/-- Any later chunk: the scratch is read as found (`a`) and kept, and the output buffer, found at `acc`, is left at
    `acc` plus the chunk's product. -/
theorem runB (c : Dev nD) (i : grid0.Coords) (arg2 : Memref sig .tc .vmem S512x2048 .f32) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (hc0 : ¬condZ i) (hc1 : ¬k0_cond2 i = 1#1) (hc2 : k0_cond3 i = 1#1)
    (x0 : Vec F S512x2048 .f32) (x1 : Vec F S2048x2048 .bf16) (x2 : Vec F S1x2048 .f32) (x3 : Vec F S2048x2048 .bf16) (x4 : Vec F S1x2048 .f32)
    (acc : Vec F S512x2048 .f32) (a : Vec F S512x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare acc ∗ owns (c : Thread nD τ) arg8 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k0_pay4 a x1 x2 x3 acc)
            ∗ owns (c : Thread nD τ) arg8 fullShare a) -∗ K ⟨⟩))
      ⊢ wp frame (wpE (defs₀ (F := F)) Variants.none c none) E (cc0__fused_sae_kernel i arg2 harg2 arg3 harg3 arg4 harg4 arg5 harg5 arg6 harg6 arg7 harg7 arg8 harg8) K := by
  simp only [cc0__fused_sae_kernel_eq_skeleton]; unfold cc0__fused_sae_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    rw [View.read_writes_eq_canon _ _ _ (fun y => ⟨_, List.mem_singleton_self _, View.mem_set_unit_zero hz2 inb_S512x2048_S512x2048_0_0 y⟩), View.canon_unit_zero hz2]
    sl_unfold_words
    simp only [View.readAt_eq_ld, harg3.read_unread, harg4.read_unread, harg5.read_unread, harg7.read_unread, harg8.read_unread,
      View.ld_unit_zero (S := S512x2048) hz2, View.ld_unit_zero (S := S2048x2048) hz2, View.ld_unit_zero (S := S1x2048) hz2]
  iexists _; isplitr; · ipureintro; exact harg8.read_unread _
  iexact H8

/-! ## What the scratch and the output block hold after each point -/

variable (m : (ℓ : Loc nD τ sig) → Buf (Elt F) ℓ) (ρ : Dev nD → PrngReg)

/-- The first point of `t`'s row tile: chunk 0 of the same tile. -/
def t0 (t : Fin cfg0.N) : Fin cfg0.N := ⟨8 * (t.val / 8), Nat.lt_of_le_of_lt (Nat.mul_div_le t.val 8) t.isLt⟩

theorem t0_of_mod (t : Fin cfg0.N) (h : t.val % 8 = 0) : t0 t = t := Fin.ext (by show 8 * (t.val / 8) = t.val; omega)

theorem t0_pred (t : Fin cfg0.N) (h : ¬t.val % 8 = 0) :
    t0 ⟨t.val - 1, Nat.lt_of_le_of_lt (Nat.sub_le _ _) t.isLt⟩ = t0 t :=
  Fin.ext (by show 8 * ((t.val - 1) / 8) = 8 * (t.val / 8); omega)

/-- The scratch after point `t`: the centred row tile, stored at the tile's first point and kept since. -/
def scrAt (c : Dev nD) (t : Fin cfg0.N) : Vec F S512x2048 .bf16 := k0_pay1 (iblk m c 0 (t0 t)) (iblk m c 4 (t0 t))

theorem scrAt_A (c : Dev nD) (t : Fin cfg0.N) (h : t.val % 8 = 0) : scrAt m c t = k0_pay1 (iblk m c 0 t) (iblk m c 4 t) := by
  unfold scrAt; rw [t0_of_mod t h]

theorem scrAt_pred (c : Dev nD) (t : Fin cfg0.N) (h : ¬t.val % 8 = 0) :
    scrAt m c ⟨t.val - 1, Nat.lt_of_le_of_lt (Nat.sub_le _ _) t.isLt⟩ = scrAt m c t := by
  unfold scrAt; rw [t0_pred t h]

/-- The output block after position `n`: at chunk 0 the chunk's product plus the bias row, at a later chunk what
    the point before left plus the chunk's product. -/
def outAt (c : Dev nD) : (n : ℕ) → n < cfg0.N → Vec F S512x2048 .f32
  | 0, hn => k0_pay3 (scrAt m c ⟨0, hn⟩) (iblk m c 1 ⟨0, hn⟩) (iblk m c 2 ⟨0, hn⟩) (iblk m c 3 ⟨0, hn⟩) (iblk m c 4 ⟨0, hn⟩)
  | n + 1, hn =>
    if (n + 1) % 8 = 0 then
      k0_pay3 (scrAt m c ⟨n + 1, hn⟩) (iblk m c 1 ⟨n + 1, hn⟩) (iblk m c 2 ⟨n + 1, hn⟩) (iblk m c 3 ⟨n + 1, hn⟩) (iblk m c 4 ⟨n + 1, hn⟩)
    else
      k0_pay4 (scrAt m c ⟨n + 1, hn⟩) (iblk m c 1 ⟨n + 1, hn⟩) (iblk m c 2 ⟨n + 1, hn⟩) (iblk m c 3 ⟨n + 1, hn⟩) (outAt c n (Nat.lt_of_succ_lt hn))

theorem outAt_A (c : Dev nD) (t : Fin cfg0.N) (h : t.val % 8 = 0) :
    outAt m c t.val t.isLt = k0_pay3 (scrAt m c t) (iblk m c 1 t) (iblk m c 2 t) (iblk m c 3 t) (iblk m c 4 t) := by
  obtain ⟨n, hn⟩ := t
  cases n with
  | zero => rfl
  | succ n => exact (if_pos h).trans rfl

theorem outAt_B (c : Dev nD) (t : Fin cfg0.N) (h : ¬t.val % 8 = 0) :
    outAt m c t.val t.isLt = k0_pay4 (scrAt m c t) (iblk m c 1 t) (iblk m c 2 t) (iblk m c 3 t)
      (outAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant and the proof data -/

/-- The scratch operand, whole. -/
abbrev scM : Memref sig .tc .vmem S512x2048 .bf16 := Memref.whole cc0_scratch0

/-- The class invariant with the scratch as a memref owned at some contents. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- Before position `n`: before the first point the scratch holds anything; afterwards what the point before left. -/
def PhiS (c : Dev nD) : (n : ℕ) → n ≤ cfg0.N → sProp 𝕄
  | 0, _ => Pipeline.ΦA spec0 c
  | n + 1, hn => iprop(iprop(owns (c : Thread nD τ) scM fullShare (scrAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c ⟨n - 1, by omega⟩)) ∗ (∃ r, prngReg c r)) := by
  cases n with
  | zero => exact absurd rfl hz
  | succ n => rfl

/-- The proof data on core `c`: the arrays as the region finds them; every input's buffer left at its block; the
    output's buffer at `outAt`; the scratch tracked by `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later chunk the output's buffer was not written back at the point before: it holds what that point left. -/
theorem before0_5 (c : Dev nD) (t : Fin cfg0.N) (hz : t.val ≠ 0) (h : ¬t.val % 8 = 0) (d) :
    (dats m 0 c).before 5 t d = outAt m c (t.val - 1) (Nat.lt_of_le_of_lt (Nat.sub_le _ _) t.isLt) := by
  have hfl : (cfg0.win 5).flush ⟨t.val - 1, Nat.lt_of_le_of_lt (Nat.sub_le _ _) t.isLt⟩ = false :=
    Bool.eq_false_iff.mpr fun hf => by
      have := (flush0_5 ⟨t.val - 1, Nat.lt_of_le_of_lt (Nat.sub_le _ _) t.isLt⟩).mp hf
      dsimp only at this; omega
  rw [(dats m 0 c).before_of_pos 5 t hz ((cfg0.win 5).fetch_out rfl t), hfl, if_neg Bool.false_ne_true]
  unfold Dat.left; rw [live5]; dsimp only
  unfold Dat.kept
  rw [Dat.before_out_kept.fill_of_clip_none' 5 _ (fun a => rfl) d ((dats m 0 c).after 5 _) , Pipeline.Window.fill_cut, after0_5]

/-! ## The body obligation, at a generic point -/

/-- Each window's current staging memref at point `t`, as the pipeline passes it. -/
abbrev ms0 (t : Fin cfg0.N) : Memref sig .tc .vmem S512x2048 .f32 := win0_0.stage (cfg0.slots t 0)
abbrev ms1 (t : Fin cfg0.N) : Memref sig .tc .vmem S2048x2048 .bf16 := win0_1.stage (cfg0.slots t 1)
abbrev ms2 (t : Fin cfg0.N) : Memref sig .tc .vmem S1x2048 .f32 := win0_2.stage (cfg0.slots t 2)
abbrev ms3 (t : Fin cfg0.N) : Memref sig .tc .vmem S2048x2048 .bf16 := win0_3.stage (cfg0.slots t 3)
abbrev ms4 (t : Fin cfg0.N) : Memref sig .tc .vmem S1x2048 .f32 := win0_4.stage (cfg0.slots t 4)
abbrev ms5 (t : Fin cfg0.N) : Memref sig .tc .vmem S512x2048 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0_0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0_0]
theorem leaves0_1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after0_1]
theorem leaves0_2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after0_2]
theorem leaves0_3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl, after0_3]
theorem leaves0_4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl, after0_4]
theorem leaves0_5 (c : Dev nD) (t : Fin cfg0.N) :
    (dats m 0 c).leavesExact 5 t = owns (c : Thread nD τ) (ms5 t) fullShare (outAt m c t.val t.isLt) := by
  unfold Dat.leavesExact; rw [live5 t, after0_5]

set_option maxHeartbeats 4800000 in
/-- The body at any point: the inputs' memrefs hold their blocks; at chunk 0 the scratch and the output's buffer hold
    anything and the first run applies; at a later chunk they hold what the point before left and the second applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  by_cases h0 : t.val % 8 = 0
  · rw [outAt_A m c t h0, scrAt_A m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcondZ t).mpr h0) ((hcond2 t).mpr h0) (fun h => (hcond3 t).mp h h0)
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ ((hcondZ t).mpr h0) ((hcond2 t).mpr h0) (fun h => (hcond3 t).mp h h0)
        (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    simp only [before0_5 m c t hz h0]
    rw [outAt_B m c t h0, PhiS_castSucc m c t, PhiS_pos m c _ _ hz, scrAt_pred m c t h0]
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (fun h => h0 ((hcondZ t).mp h)) (fun h => h0 ((hcond2 t).mp h)) ((hcond3 t).mpr h0)
      (iblk m c 0 t) (iblk m c 1 t) (iblk m c 2 t) (iblk m c 3 t) (iblk m c 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨HS, Hg⟩
  isplitl [HS]
  · iexists _; iexact HS
  iexact Hg

/-! ## The run and the frame -/

set_option backward.isDefEq.respectTransparency.types false in
/-- Every weakly fair execution of @main terminates without a fault, every array of the pipeline ends at what the
    proof data give (the output array: the blocks written back after each tile's last chunk), and every other
    unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.PayIdx.lean ====
/-
  The kernel body's arithmetic, read at an index, on the extended reals.

  Each of the body's four stored values is a chain of elementwise operations, same-shape casts, a one-row
  broadcast and (for the second) two matrix products contracting axis 1 of both operands.  On the extended
  reals a format change is the identity and every operation is exact, so at an index (p, q) each value is
  the plain formula:

    centred tile         : x p d - b_dec d
    chunk's contribution : sum over k of max ((sum over d of a p d * W_enc k d) + b_enc k) 0 * W_dec q k
    first store          : contribution + b_dec q
    later stores         : accumulator + contribution
-/
import proofs.«127214_g47287589929625_cont_8to1_c_1111_23_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Cert.KernelIdeal Cert.KernelIdeal.Gen Idealize.ShloMosaic Idealize.ShloMosaic.ValueIdx
open scoped BigOperators

/-- The body's dot: both operands contract their axis 1, the rows of each are the free axes. -/
local notation "D" => dot_S512x2048_S2048x2048_S512x2048_1_1_0_0_n_n

/-- Left operand index at output (p, q), contraction position k: row p (the free axis). -/
theorem lhs_0 (j : S512x2048.Idx) (k : (D).contr.Idx) : ((D).lhsIdx j k 0).val = (j 0).val := by
  unfold DotDims.lhsIdx
  rw [dif_neg (show ¬(0 : Fin S512x2048.rank) ∈ (D).lhsBatch by decide), dif_pos (show (0 : Fin S512x2048.rank) ∈ (D).lhsNonContracting by decide)]
  rfl

/-- ... and column k (the contracted axis). -/
theorem lhs_1 (j : S512x2048.Idx) (k : (D).contr.Idx) : ((D).lhsIdx j k 1).val = (k ⟨0, by decide⟩).val :=
  (D).lhsIdx_val_of_single rfl j k

/-- Right operand index at output (p, q), contraction position k: row q (the free axis). -/
theorem rhs_0 (j : S512x2048.Idx) (k : (D).contr.Idx) : ((D).rhsIdx j k 0).val = (j 1).val := by
  unfold DotDims.rhsIdx
  rw [dif_neg (show ¬(0 : Fin S2048x2048.rank) ∈ (D).rhsBatch by decide), dif_pos (show (0 : Fin S2048x2048.rank) ∈ (D).rhsNonContracting by decide)]
  rfl

/-- ... and column k (the contracted axis). -/
theorem rhs_1 (j : S512x2048.Idx) (k : (D).contr.Idx) : ((D).rhsIdx j k 1).val = (k ⟨0, by decide⟩).val :=
  (D).rhsIdx_val_of_single rfl j k

/-- The body's matrix product into a zero accumulator: out (p, q) = sum over k of a (p, k) * b (q, k). -/
theorem mm_apply {φ₁ φ₂ : FTy} (a : FVec Ideal S512x2048 φ₁) (b : FVec Ideal S2048x2048 φ₂) (p : Fin 512) (q : Fin 2048) :
    matmul D none a b (constant S512x2048 .f32 0x00000000#32) (ix2 p q)
      = (∑ k : Fin 2048, (a (ix2 p k) : EReal) * b (ix2 q k) : EReal) := by
  simp only [matmul]
  rw [Ideal.matmul_constant_zero_apply, ← Equiv.sum_comp (contrEquiv1 D 2048 rfl rfl).symm]
  refine Finset.sum_congr rfl fun k _ => ?_
  have hk := contrEquiv1_symm_val D 2048 rfl rfl k
  have el : (D).lhsIdx (ix2 p q) ((contrEquiv1 D 2048 rfl rfl).symm k) = ix2 p k := funext fun c => Fin.ext (by
    match c with
    | ⟨0, _⟩ => exact lhs_0 _ _
    | ⟨1, _⟩ => exact (lhs_1 _ _).trans hk)
  have er : (D).rhsIdx (ix2 p q) ((contrEquiv1 D 2048 rfl rfl).symm k) = ix2 q k := funext fun c => Fin.ext (by
    match c with
    | ⟨0, _⟩ => exact rhs_0 _ _
    | ⟨1, _⟩ => exact (rhs_1 _ _).trans hk)
  rw [el, er]

/-- A [1, 2048] row broadcast over the 512 rows reads, at (p, c), the row at c. -/
theorem row_apply {α : Type} (v : S1x2048.Idx → α) (p : Fin 512) (c : Fin 2048) :
    broadcastTo S512x2048 v broadcasts_S1x2048_S512x2048 (ix2 p c) = v (ix2 (0 : Fin 1) c) :=
  broadcastTo_1b_ab_apply v broadcasts_S1x2048_S512x2048 p c

/-- The centred tile: the block of x less the decoder bias's row. -/
theorem pay1_apply (xb : Vec Ideal S512x2048 .f32) (bd : Vec Ideal S1x2048 .f32) (p : Fin 512) (d : Fin 2048) :
    k0_pay1 (F := Ideal) xb bd (ix2 p d) = (xb (ix2 p d) - bd (ix2 (0 : Fin 1) d) : EReal) := by
  unfold k0_pay1
  simp only [shapeCast_self]
  rw [truncf_apply, subf_apply, row_apply]

/-- The encoder's product at (p, k): the tile's row p against row k of the encoder block. -/
theorem enc_apply (a : Vec Ideal S512x2048 .bf16) (we : Vec Ideal S2048x2048 .bf16) (p : Fin 512) (k : Fin 2048) :
    matmul (F := Ideal) (φ₁ := .bf16) (φ₂ := .bf16) D none a (shapeCast S2048x2048 we shapeCasts_S2048x2048_S2048x2048) (constant S512x2048 .f32 0x00000000#32) (ix2 p k)
      = (∑ d : Fin 2048, (a (ix2 p d) : EReal) * we (ix2 k d) : EReal) := by
  rw [shapeCast_self]
  exact mm_apply (φ₁ := .bf16) (φ₂ := .bf16) a we p k

/-- The hidden activation of the chunk, as the body computes it from the stored centred tile. -/
def hidv (a : Vec Ideal S512x2048 .bf16) (we : Vec Ideal S2048x2048 .bf16) (be : Vec Ideal S1x2048 .f32) : FVec Ideal S512x2048 .bf16 :=
  truncf .bf16 (maximumf (addf (matmul (φ₁ := .bf16) (φ₂ := .bf16) D none a (shapeCast S2048x2048 we shapeCasts_S2048x2048_S2048x2048) (constant S512x2048 .f32 0x00000000#32))
      (broadcastTo S512x2048 (shapeCast S1x2048 be shapeCasts_S1x2048_S1x2048) broadcasts_S1x2048_S512x2048))
    (broadcast S512x2048 (Scalar.ofBits .f32 0x00000000#32))) bitsLt_bf16_f32

/-- The hidden activation at (p, k): the encoder's product plus the bias, cut off below at 0. -/
theorem hidv_apply (a : Vec Ideal S512x2048 .bf16) (we : Vec Ideal S2048x2048 .bf16) (be : Vec Ideal S1x2048 .f32) (p : Fin 512) (k : Fin 2048) :
    hidv a we be (ix2 p k)
      = (max ((∑ d : Fin 2048, (a (ix2 p d) : EReal) * we (ix2 k d)) + be (ix2 (0 : Fin 1) k)) 0 : EReal) := by
  unfold hidv
  rw [truncf_apply, maximumf_apply, addf_apply, enc_apply, shapeCast_self, row_apply, broadcast_apply]
  exact congrArg (max _) Ideal.ofBits_zero_f32

/-- The body's contribution is the decoder's product of the hidden activation. -/
theorem pay2_eq (a : Vec Ideal S512x2048 .bf16) (we : Vec Ideal S2048x2048 .bf16) (be : Vec Ideal S1x2048 .f32) (wd : Vec Ideal S2048x2048 .bf16) :
    k0_pay2 (F := Ideal) a we be wd
      = matmul (φ₁ := .bf16) (φ₂ := .bf16) D none (hidv a we be) (shapeCast S2048x2048 wd shapeCasts_S2048x2048_S2048x2048) (constant S512x2048 .f32 0x00000000#32) := rfl

/-- The chunk's contribution at (p, q). -/
theorem pay2_apply (a : Vec Ideal S512x2048 .bf16) (we : Vec Ideal S2048x2048 .bf16) (be : Vec Ideal S1x2048 .f32) (wd : Vec Ideal S2048x2048 .bf16) (p : Fin 512) (q : Fin 2048) :
    k0_pay2 (F := Ideal) a we be wd (ix2 p q)
      = (∑ k : Fin 2048, max ((∑ d : Fin 2048, (a (ix2 p d) : EReal) * we (ix2 k d)) + be (ix2 (0 : Fin 1) k)) 0 * wd (ix2 q k) : EReal) := by
  rw [pay2_eq, shapeCast_self, mm_apply (φ₁ := .bf16) (φ₂ := .bf16)]
  exact Finset.sum_congr rfl fun k _ => congrArg (· * _) (hidv_apply a we be p k)

/-- The first chunk's store: the contribution plus the decoder bias's row. -/
theorem pay3_apply (a : Vec Ideal S512x2048 .bf16) (we : Vec Ideal S2048x2048 .bf16) (be : Vec Ideal S1x2048 .f32) (wd : Vec Ideal S2048x2048 .bf16) (bd : Vec Ideal S1x2048 .f32) (p : Fin 512) (q : Fin 2048) :
    k0_pay3 (F := Ideal) a we be wd bd (ix2 p q) = (k0_pay2 (F := Ideal) a we be wd (ix2 p q) + bd (ix2 (0 : Fin 1) q) : EReal) := by
  unfold k0_pay3
  generalize k0_pay2 (F := Ideal) a we be wd = y
  simp only [shapeCast_self]
  rw [addf_apply, row_apply]

/-- The later chunks' store: the accumulated block plus the contribution. -/
theorem pay4_apply (a : Vec Ideal S512x2048 .bf16) (we : Vec Ideal S2048x2048 .bf16) (be : Vec Ideal S1x2048 .f32) (wd : Vec Ideal S2048x2048 .bf16) (acc : Vec Ideal S512x2048 .f32) (p : Fin 512) (q : Fin 2048) :
    k0_pay4 (F := Ideal) a we be wd acc (ix2 p q) = (acc (ix2 p q) + k0_pay2 (F := Ideal) a we be wd (ix2 p q) : EReal) := by
  unfold k0_pay4
  generalize k0_pay2 (F := Ideal) a we be wd = y
  simp only [shapeCast_self]
  rw [addf_apply]

end Cert.KernelIdeal.PayIdx

end
-- ==== Proof.Spec.lean ====
/-
  The function both programs compute, on the extended reals.

  With x : [8192, 2048], W_enc : [16384, 2048], b_enc : [16384], W_dec : [2048, 16384], b_dec : [2048]:

    hid r k = max (sum over d of (x r d - b_dec d) * W_enc k d  +  b_enc k) 0          (the hidden activation)
    out r c = (sum over k of hid r k * W_dec c k) + b_dec c                             (the reconstruction)

  The reference multiplies hid by the indicator of hid > -1, which is 1 because a maximum with 0 is never
  below 0.  The kernel cuts the 16384 hidden units into 8 chunks of 2048 and adds the chunks' partial sums one
  after the other onto b_dec (chunk 0's sum first): `chunk` is one such partial sum, and addition of extended reals
  being commutative and associative the two groupings agree with no finiteness assumption.
-/
import Idealize.ShloMosaic.PureOps.Ideal
import Idealize.ShloMosaic.PureOps.Ideal.Laws
import Idealize.ShloMosaic.Lib.ValueIdx

noncomputable section

open scoped BigOperators

namespace Cert.Sae

open Idealize.ShloMosaic Idealize.ShloMosaic.ValueIdx

/-- The five argument shapes, spelt literally (each program's own abbreviation of the same shape unfolds to these). -/
abbrev SX : Shape := ⟨2, ![8192, 2048]⟩
abbrev SWe : Shape := ⟨2, ![16384, 2048]⟩
abbrev SBe : Shape := ⟨1, ![16384]⟩
abbrev SWd : Shape := ⟨2, ![2048, 16384]⟩
abbrev SBd : Shape := ⟨1, ![2048]⟩

variable (X : SX.Idx → EReal) (We : SWe.Idx → EReal) (Be : SBe.Idx → EReal) (Wd : SWd.Idx → EReal) (Bd : SBd.Idx → EReal)

/-- The encoder's pre-activation of row `r` at hidden unit `k`: the centred row against row `k` of `W_enc`, plus the bias. -/
def pre (r : Fin 8192) (k : Fin 16384) : EReal :=
  (∑ d : Fin 2048, (X (ix2 r d) - Bd (ix1 d)) * We (ix2 k d)) + Be (ix1 k)

/-- The hidden activation: the pre-activation cut off below at 0. -/
def hid (r : Fin 8192) (k : Fin 16384) : EReal := max (pre X We Be Bd r k) 0

/-- The reconstruction of row `r` at column `c`. -/
def out (r : Fin 8192) (c : Fin 2048) : EReal :=
  (∑ k : Fin 16384, hid X We Be Bd r k * Wd (ix2 c k)) + Bd (ix1 c)

/-- Hidden unit `k'` of chunk `s` (8 chunks of 2048 units). -/
def unitOf (s : Fin 8) (k' : Fin 2048) : Fin 16384 := ⟨2048 * s.val + k'.val, by have := s.isLt; have := k'.isLt; omega⟩

/-- Row `p` of row tile `i` (16 tiles of 512 rows). -/
def rowOf (i : Fin 16) (p : Fin 512) : Fin 8192 := ⟨512 * i.val + p.val, by have := i.isLt; have := p.isLt; omega⟩

/-- Chunk `s`'s share of the reconstruction's sum. -/
def chunk (r : Fin 8192) (c : Fin 2048) (s : Fin 8) : EReal :=
  ∑ k' : Fin 2048, hid X We Be Bd r (unitOf s k') * Wd (ix2 c (unitOf s k'))

/-- The whole result array: `out` at the index's two coordinates. -/
def G : SX.Idx → EReal := fun i => out X We Be Wd Bd ⟨(i 0).val, idx2_lt0 i⟩ ⟨(i 1).val, idx2_lt1 i⟩

theorem G_ix2 (r : Fin 8192) (c : Fin 2048) : G X We Be Wd Bd (ix2 r c) = out X We Be Wd Bd r c := rfl

end Cert.Sae

end
-- ==== Proof.Blocks.lean ====
/-
  The windows' blocks of the fused kernel read at an index, and the cover of its output, on the extended reals.

  The grid is 16 row tiles by 8 chunks of hidden units; point t has tile t / 8 and chunk t % 8.  A block's
  coordinate in its array is always (block index) * (block size) + (the coordinate inside the block), so

    window 0 (x, rows of the tile):          block (tile, 0) of [512, 2048]
    window 1 (W_enc, the chunk's units):     block (chunk, 0) of [2048, 2048]
    window 2 (b_enc as a row, the chunk):    block (0, chunk) of [1, 2048]
    window 3 (W_dec, the chunk's columns):   block (0, chunk) of [2048, 2048]
    window 4 (b_dec as a row):               block (0, 0) of [1, 2048]
    window 5 (the output, rows of the tile): block (tile, 0) of [512, 2048], written back at the tile's last chunk.

  The arrays the windows 1 to 4 read are written before the region from the arguments: a change of format, which
  is the identity on the extended reals, or a leading unit axis added.
-/
import proofs.«127214_g47287589929625_cont_8to1_c_1111_23_alg».proof.Proof.Gen.KernelIdeal.Frame
import proofs.«127214_g47287589929625_cont_8to1_c_1111_23_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

/-- The row tile of point t. -/
def tile (t : Fin cfg0.N) : Fin 16 := ⟨t.val / 8, by have := t.isLt; have h : cfg0.N = 128 := N_0; omega⟩
/-- The chunk of hidden units of point t. -/
def chnk (t : Fin cfg0.N) : Fin 8 := ⟨t.val % 8, Nat.mod_lt _ (by decide)⟩

/-! ## The block indices, decided once over the grid -/

theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = 0 ∧ win0_2.index t (1 : Fin 2) = t.val % 8 :=
  (by decide +kernel : ∀ t : Fin grid0.N, win0_2.index t (0 : Fin 2) = 0 ∧ win0_2.index t (1 : Fin 2) = t.val % 8)
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem xsize5 : ∀ t : Fin cfg0.N, win0_5.xsize (grid0.coords t) (0 : Fin 2) = 512 ∧ win0_5.xsize (grid0.coords t) (1 : Fin 2) = 2048 :=
  (by decide +kernel : ∀ t : Fin grid0.N, win0_5.xsize (grid0.coords t) (0 : Fin 2) = 512 ∧ win0_5.xsize (grid0.coords t) (1 : Fin 2) = 2048)
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

variable (m : (ℓ : Loc nD τ sig) → Buf (Elt Ideal) ℓ) (c : Dev nD) (t : Fin cfg0.N)

/-! ## The arrays written before the region -/

/-- W_enc in the narrower format is W_enc. -/
theorem V_v0 (i : S16384x2048.Idx) : ((V m c main_v0 : S16384x2048.Idx → EReal) i) = m ((c : Thread nD τ).loc main_arg1) i := by
  have e : (V m c main_v0 : S16384x2048.Idx → EReal) = (truncf .bf16 (m ((c : Thread nD τ).loc main_arg1) : FVec Ideal S16384x2048 .f32) bitsLt_bf16_f32 : FVec Ideal S16384x2048 .bf16) := by
    dsimp only [Gen.V, Gen.hostOps0]; after_results
  rw [e]; rfl

/-- W_dec in the narrower format is W_dec. -/
theorem V_v1 (i : S2048x16384.Idx) : ((V m c main_v1 : S2048x16384.Idx → EReal) i) = m ((c : Thread nD τ).loc main_arg3) i := by
  have e : (V m c main_v1 : S2048x16384.Idx → EReal) = (truncf .bf16 (m ((c : Thread nD τ).loc main_arg3) : FVec Ideal S2048x16384 .f32) bitsLt_bf16_f32 : FVec Ideal S2048x16384 .bf16) := by
    dsimp only [Gen.V, Gen.hostOps0]; after_results
  rw [e]; rfl

/-- b_enc as a row. -/
theorem V_v2 (k : Fin 16384) : ((V m c main_v2 : S1x16384.Idx → EReal) (ix2 (0 : Fin 1) k)) = m ((c : Thread nD τ).loc main_arg2) (ix1 k) := by
  have e : (V m c main_v2 : S1x16384.Idx → EReal) = shapeCast S1x16384 (m ((c : Thread nD τ).loc main_arg2) : S16384.Idx → EReal) shapeCasts_S16384_S1x16384 := by
    dsimp only [Gen.V, Gen.hostOps0]; after_results; rfl
  rw [e]; exact shapeCast_a_1a_apply _ _ _ _

/-- b_dec as a row. -/
theorem V_v3 (d : Fin 2048) : ((V m c main_v3 : S1x2048.Idx → EReal) (ix2 (0 : Fin 1) d)) = m ((c : Thread nD τ).loc main_arg4) (ix1 d) := by
  have e : (V m c main_v3 : S1x2048.Idx → EReal) = shapeCast S1x2048 (m ((c : Thread nD τ).loc main_arg4) : S2048.Idx → EReal) shapeCasts_S2048_S1x2048 := by
    dsimp only [Gen.V, Gen.hostOps0]; after_results; rfl
  rw [e]; exact shapeCast_a_1a_apply _ _ _ _

/-! ## The input blocks -/

theorem iblk0_apply (p : Fin 512) (d : Fin 2048) :
    ((iblk m c 0 t : Vec Ideal S512x2048 .f32) (ix2 p d) : EReal)
      = m ((c : Thread nD τ).loc main_arg0) (ix2 (Cert.Sae.rowOf (tile t) p) d) := by
  have hi := idx0 t
  unfold iblk
  rw [View.read_apply]
  show V m c main_arg0 _ = _
  rw [V_main_arg0]
  congr 1
  funext a
  apply Fin.ext
  match a with
  | ⟨0, _⟩ => show win0_0.index t 0 * 512 + 1 * p.val = 512 * (t.val / 8) + p.val; rw [hi.1]; omega
  | ⟨1, _⟩ => show win0_0.index t 1 * 2048 + 1 * d.val = d.val; rw [hi.2]; omega

theorem iblk1_apply (k d : Fin 2048) :
    ((iblk m c 1 t : Vec Ideal S2048x2048 .bf16) (ix2 k d) : EReal)
      = m ((c : Thread nD τ).loc main_arg1) (ix2 (Cert.Sae.unitOf (chnk t) k) d) := by
  have hi := idx1 t
  unfold iblk
  rw [View.read_apply]
  show V m c main_v0 _ = _
  refine (V_v0 m c _).trans ?_
  congr 1
  funext a
  apply Fin.ext
  match a with
  | ⟨0, _⟩ => show win0_1.index t 0 * 2048 + 1 * k.val = 2048 * (t.val % 8) + k.val; rw [hi.1]; omega
  | ⟨1, _⟩ => show win0_1.index t 1 * 2048 + 1 * d.val = d.val; rw [hi.2]; omega

theorem iblk2_apply (k : Fin 2048) :
    ((iblk m c 2 t : Vec Ideal S1x2048 .f32) (ix2 (0 : Fin 1) k) : EReal)
      = m ((c : Thread nD τ).loc main_arg2) (ix1 (Cert.Sae.unitOf (chnk t) k)) := by
  have hi := idx2 t
  unfold iblk
  rw [View.read_apply]
  show V m c main_v2 _ = _
  refine Eq.trans (congrArg (V m c main_v2) (?_ : _ = ix2 (0 : Fin 1) (Cert.Sae.unitOf (chnk t) k))) (V_v2 m c _)
  funext a
  apply Fin.ext
  match a with
  | ⟨0, _⟩ => show win0_2.index t 0 * 1 + 1 * 0 = 0; rw [hi.1]
  | ⟨1, _⟩ => show win0_2.index t 1 * 2048 + 1 * k.val = 2048 * (t.val % 8) + k.val; rw [hi.2]; omega

theorem iblk3_apply (q k : Fin 2048) :
    ((iblk m c 3 t : Vec Ideal S2048x2048 .bf16) (ix2 q k) : EReal)
      = m ((c : Thread nD τ).loc main_arg3) (ix2 q (Cert.Sae.unitOf (chnk t) k)) := by
  have hi := idx3 t
  unfold iblk
  rw [View.read_apply]
  show V m c main_v1 _ = _
  refine (V_v1 m c _).trans ?_
  congr 1
  funext a
  apply Fin.ext
  match a with
  | ⟨0, _⟩ => show win0_3.index t 0 * 2048 + 1 * q.val = q.val; rw [hi.1]; omega
  | ⟨1, _⟩ => show win0_3.index t 1 * 2048 + 1 * k.val = 2048 * (t.val % 8) + k.val; rw [hi.2]; omega

theorem iblk4_apply (d : Fin 2048) :
    ((iblk m c 4 t : Vec Ideal S1x2048 .f32) (ix2 (0 : Fin 1) d) : EReal)
      = m ((c : Thread nD τ).loc main_arg4) (ix1 d) := by
  have hi := idx4 t
  unfold iblk
  rw [View.read_apply]
  show V m c main_v3 _ = _
  refine Eq.trans (congrArg (V m c main_v3) (?_ : _ = ix2 (0 : Fin 1) d)) (V_v3 m c _)
  funext a
  apply Fin.ext
  match a with
  | ⟨0, _⟩ => show win0_4.index t 0 * 1 + 1 * 0 = 0; rw [hi.1]
  | ⟨1, _⟩ => show win0_4.index t 1 * 2048 + 1 * d.val = d.val; rw [hi.2]; omega

/-! ## The output block and the cover -/

/-- The output's block at point t of any function of the output's index: the rows of the tile. -/
theorem blk5_read (G : S8192x2048.Idx → EReal) (p : Fin 512) (q : Fin 2048) :
    ((((cfg0.win 5).blk t).view.read (Elt Ideal) G : Vec Ideal S512x2048 .f32) (ix2 p q) : EReal)
      = G (ix2 (Cert.Sae.rowOf (tile t) p) q) := by
  have hi := idx5 t
  rw [View.read_apply]
  refine congrArg G ?_
  funext a
  apply Fin.ext
  match a with
  | ⟨0, _⟩ => show win0_5.index t 0 * 512 + 1 * p.val = 512 * (t.val / 8) + p.val; rw [hi.1]; omega
  | ⟨1, _⟩ => show win0_5.index t 1 * 2048 + 1 * q.val = q.val; rw [hi.2]; omega

/-- Every element of the output is in a block that is written back: row r is in tile r / 512, whose block leaves
    at the tile's last chunk, point 8 * (r / 512) + 7. -/
theorem cover5 (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 128 := N_0
  let t : Fin cfg0.N := ⟨8 * ((i 0 : Nat) / 512) + 7, by rw [hN]; omega⟩
  have ht : t.val = 8 * ((i 0 : Nat) / 512) + 7 := rfl
  have hi := idx5 t
  have hx := xsize5 t
  refine ⟨t, (flush0_5 t).mpr (by rw [ht]; omega), ?_⟩
  show i ∈ ((View.whole main_v4).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + win0_5.xsize (grid0.coords t) 0
    rw [hi.1, hx.1, ht]; omega
  | ⟨1, _⟩ =>
    show win0_5.index t 1 * 2048 ≤ (i 1 : Nat) ∧ (i 1 : Nat) < win0_5.index t 1 * 2048 + win0_5.xsize (grid0.coords t) 1
    rw [hi.2, hx.2]; omega

end Cert.KernelIdeal.Blocks

end
-- ==== Proof.SpecAlg.lean ====
/-
  The reconstruction's sum over the 16384 hidden units, regrouped as 8 chunks of 2048 units.

  Hidden unit k = 2048 * s + k' is unit k' of chunk s.  The map (s, k') |-> 2048 * s + k' is a bijection of
  Fin 8 x Fin 2048 onto Fin 16384, so the sum over all units is the double sum over chunks and units of a chunk.
  Addition of extended reals is commutative and associative, so no finiteness assumption is needed.
-/
import proofs.«127214_g47287589929625_cont_8to1_c_1111_23_alg».proof.Proof.Spec
import Mathlib.Algebra.BigOperators.Fin
import Mathlib.Logic.Equiv.Fin.Basic

noncomputable section

open scoped BigOperators

namespace Cert.Sae

open Idealize.ShloMosaic Idealize.ShloMosaic.ValueIdx

/-- A sum over the 16384 hidden units is the sum over the 8 chunks of the sums over each chunk's 2048 units. -/
theorem sum_units_eq_chunks (f : Fin 16384 → EReal) :
    ∑ k : Fin 16384, f k = ∑ s : Fin 8, ∑ k' : Fin 2048, f (unitOf s k') := by
  rw [← Fintype.sum_prod_type']
  refine (Fintype.sum_equiv (finProdFinEquiv (m := 8) (n := 2048)) (fun p => f (unitOf p.1 p.2)) (fun k => f k) ?_).symm
  intro p
  congr 1
  apply Fin.ext
  simp [unitOf, finProdFinEquiv]
  omega

theorem out_eq_chunks (X : SX.Idx → EReal) (We : SWe.Idx → EReal) (Be : SBe.Idx → EReal) (Wd : SWd.Idx → EReal) (Bd : SBd.Idx → EReal) (r : Fin 8192) (c : Fin 2048) :
    out X We Be Wd Bd r c = Bd (ix1 c) + ∑ s : Fin 8, chunk X We Be Wd Bd r c s := by
  unfold out chunk
  rw [add_comm, sum_units_eq_chunks (fun k => hid X We Be Bd r k * Wd (ix2 c k))]

end Cert.Sae

end
-- ==== Proof.KValue.lean ====
/-
  The idealized kernel's result array, index by index.

  The output block after the last chunk of a row tile is the fold, over the tile's eight points, of "add this
  chunk's product", started from "chunk 0's product plus the bias row".  Read at an element (p, q) of the block,
  each product is the chunk's share `Sae.chunk` of the reconstruction's sum at row 512·tile + p and column q — the
  scratch holds the centred row, the windows' blocks are the rows of W_enc, the entries of b_enc and the columns of
  W_dec that the chunk names — so the fold is b_dec q plus the eight chunks' shares, which is the reconstruction
  `Sae.out`.  The blocks written back after each tile's last chunk tile the array, so the array ends at `Sae.G`.
-/
import proofs.«127214_g47287589929625_cont_8to1_c_1111_23_alg».proof.Proof.KernelIdealBody
import proofs.«127214_g47287589929625_cont_8to1_c_1111_23_alg».proof.Proof.PayIdx
import proofs.«127214_g47287589929625_cont_8to1_c_1111_23_alg».proof.Proof.Blocks
import proofs.«127214_g47287589929625_cont_8to1_c_1111_23_alg».proof.Proof.Spec
import proofs.«127214_g47287589929625_cont_8to1_c_1111_23_alg».proof.Proof.SpecAlg
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Body Cert.KernelIdeal.Blocks Cert.KernelIdeal.PayIdx
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The five argument arrays as launched, as functions of an index into the extended reals. -/
abbrev aX : Cert.Sae.SX.Idx → EReal := m ((c : Thread nD τ).loc main_arg0)
abbrev aWe : Cert.Sae.SWe.Idx → EReal := m ((c : Thread nD τ).loc main_arg1)
abbrev aBe : Cert.Sae.SBe.Idx → EReal := m ((c : Thread nD τ).loc main_arg2)
abbrev aWd : Cert.Sae.SWd.Idx → EReal := m ((c : Thread nD τ).loc main_arg3)
abbrev aBd : Cert.Sae.SBd.Idx → EReal := m ((c : Thread nD τ).loc main_arg4)

/-- What the result array holds at the end: the reconstruction of the argument arrays. -/
abbrev result : Buf (Elt Ideal) ((c : Thread nD τ).loc main_v4) :=
  Cert.Sae.G (aX m c) (aWe m c) (aBe m c) (aWd m c) (aBd m c)

/-! ## The scratch and one chunk's product at an element -/

theorem tile_t0 (t : Fin cfg0.N) : tile (t0 t) = tile t :=
  Fin.ext (by show 8 * (t.val / 8) / 8 = t.val / 8; omega)

/-- The scratch after point `t` holds the centred row: x at the tile's row minus b_dec. -/
theorem scr_apply (t : Fin cfg0.N) (p : Fin 512) (d : Fin 2048) :
    (scrAt m c t (ix2 p d) : EReal) = aX m c (ix2 (Cert.Sae.rowOf (tile t) p) d) - aBd m c (ix1 d) := by
  unfold scrAt
  refine (pay1_apply _ _ p d).trans ?_
  rw [iblk0_apply m c (t0 t) p d, iblk4_apply m c (t0 t) d, tile_t0]

/-- Point `t`'s product at element (p, q) of the block is its chunk's share of the reconstruction's sum. -/
theorem chunk_eq (t : Fin cfg0.N) (p : Fin 512) (q : Fin 2048) :
    (k0_pay2 (F := Ideal) (scrAt m c t) (iblk m c 1 t) (iblk m c 2 t) (iblk m c 3 t) (ix2 p q) : EReal)
      = Cert.Sae.chunk (aX m c) (aWe m c) (aBe m c) (aWd m c) (aBd m c) (Cert.Sae.rowOf (tile t) p) q (chnk t) := by
  refine (pay2_apply _ _ _ _ p q).trans ?_
  unfold Cert.Sae.chunk Cert.Sae.hid Cert.Sae.pre
  refine Finset.sum_congr rfl fun k _ => ?_
  have hin : (∑ d : Fin 2048, (scrAt m c t (ix2 p d) : EReal) * (iblk m c 1 t : Vec Ideal S2048x2048 .bf16) (ix2 k d))
      = ∑ d : Fin 2048, (aX m c (ix2 (Cert.Sae.rowOf (tile t) p) d) - aBd m c (ix1 d)) * aWe m c (ix2 (Cert.Sae.unitOf (chnk t) k) d) :=
    Finset.sum_congr rfl fun d _ => by rw [scr_apply m c t p d, iblk1_apply m c t k d]
  rw [hin, iblk2_apply m c t k, iblk3_apply m c t q k]

/-! ## The output block as a fold over the tile's points -/

/-- Chunk 0's value of the output block, as a function of the position. -/
def resetF (n : ℕ) (hn : n < cfg0.N) : Vec Ideal S512x2048 .f32 :=
  k0_pay3 (scrAt m c ⟨n, hn⟩) (iblk m c 1 ⟨n, hn⟩) (iblk m c 2 ⟨n, hn⟩) (iblk m c 3 ⟨n, hn⟩) (iblk m c 4 ⟨n, hn⟩)

/-- A later chunk's update of the output block. -/
def stepF (n : ℕ) (hn : n < cfg0.N) (acc : Vec Ideal S512x2048 .f32) : Vec Ideal S512x2048 .f32 :=
  k0_pay4 (scrAt m c ⟨n, hn⟩) (iblk m c 1 ⟨n, hn⟩) (iblk m c 2 ⟨n, hn⟩) (iblk m c 3 ⟨n, hn⟩) acc

theorem outAt_fold (t : Fin cfg0.N) (h' : 8 * (t.val / 8) + t.val % 8 < cfg0.N) :
    outAt m c t.val t.isLt = Pipeline.accAt (resetF m c) (stepF m c) (8 * (t.val / 8)) (t.val % 8) h' :=
  Pipeline.eq_accAt_of_mod (outAt m c) 8 (resetF m c) (stepF m c)
    (fun n h e => outAt_A m c ⟨n, h⟩ e) (fun n h e => outAt_B m c ⟨n + 1, h⟩ e) (by decide) t.val t.isLt h'

/-- Position `n`'s product at an element of the block (0 past the grid, where it is never used). -/
def addend (n : ℕ) (i : S512x2048.Idx) : EReal :=
  if hn : n < cfg0.N then (k0_pay2 (F := Ideal) (scrAt m c ⟨n, hn⟩) (iblk m c 1 ⟨n, hn⟩) (iblk m c 2 ⟨n, hn⟩) (iblk m c 3 ⟨n, hn⟩) i : EReal) else 0

/-- The bias row at an element of the block. -/
def biasRow (i : S512x2048.Idx) : EReal := aBd m c (ix1 ⟨(i 1).val, idx2_lt1 i⟩)

theorem fold_apply (b j : ℕ) (hj : j ≤ 7) (h : b + j < cfg0.N) (i : S512x2048.Idx) :
    (Pipeline.accAt (resetF m c) (stepF m c) b j h i : EReal) = biasRow m c i + ∑ s ∈ Finset.range (j + 1), addend m c (b + s) i := by
  refine Pipeline.accAt_add_apply (β := EReal) (resetF m c) (stepF m c) (biasRow m c) (addend m c) b 7 ?_ ?_ j hj h i
  · intro hb i
    obtain ⟨p, q, rfl⟩ : ∃ (p : Fin 512) (q : Fin 2048), i = ix2 p q := ⟨i 0, i 1, eq_ix2 i⟩
    unfold resetF addend biasRow
    rw [dif_pos hb]
    refine (pay3_apply _ _ _ _ _ p q).trans ?_
    rw [iblk4_apply m c ⟨b, hb⟩ q, add_comm]
  · intro n hn acc i _ _
    obtain ⟨p, q, rfl⟩ : ∃ (p : Fin 512) (q : Fin 2048), i = ix2 p q := ⟨i 0, i 1, eq_ix2 i⟩
    unfold stepF addend
    rw [dif_pos hn]
    exact pay4_apply _ _ _ _ acc p q

/-- After a tile's last chunk the output block holds the reconstruction of the tile's rows. -/
theorem out_last (t : Fin cfg0.N) (h7 : t.val % 8 = 7) (p : Fin 512) (q : Fin 2048) :
    (outAt m c t.val t.isLt (ix2 p q) : EReal)
      = Cert.Sae.out (aX m c) (aWe m c) (aBe m c) (aWd m c) (aBd m c) (Cert.Sae.rowOf (tile t) p) q := by
  have hN : cfg0.N = 128 := N_0
  have hlt : t.val < 128 := hN ▸ t.isLt
  have h' : 8 * (t.val / 8) + t.val % 8 < cfg0.N := lt_of_lt_of_eq (by omega : 8 * (t.val / 8) + t.val % 8 < 128) hN.symm
  rw [outAt_fold m c t h', fold_apply m c _ _ (by omega) h', Cert.Sae.out_eq_chunks, h7]
  show aBd m c (ix1 q) + ∑ s ∈ Finset.range 8, addend m c (8 * (t.val / 8) + s) (ix2 p q) = _
  rw [Finset.sum_range]
  refine congrArg (aBd m c (ix1 q) + ·) (Finset.sum_congr rfl fun s _ => ?_)
  have hs : 8 * (t.val / 8) + s.val < cfg0.N :=
    lt_of_lt_of_eq (by have := s.isLt; omega : 8 * (t.val / 8) + s.val < 128) hN.symm
  have e1 : tile ⟨8 * (t.val / 8) + s.val, hs⟩ = tile t :=
    Fin.ext (by show (8 * (t.val / 8) + s.val) / 8 = t.val / 8; have := s.isLt; omega)
  have e2 : chnk ⟨8 * (t.val / 8) + s.val, hs⟩ = s :=
    Fin.ext (by show (8 * (t.val / 8) + s.val) % 8 = s.val; have := s.isLt; omega)
  unfold addend
  rw [dif_pos hs, chunk_eq m c ⟨8 * (t.val / 8) + s.val, hs⟩ p q, e1, e2]

/-! ## From the blocks to the array -/

/-- What a tile's last point writes back is the tile's block of `result`. -/
theorem flushed_eq (t : Fin cfg0.N) (hf : (cfg0.win 5).flush t = true) :
    (dats m 0 c).flushed 5 t = ((cfg0.win 5).blk t).view.read (Elt Ideal) (result m c) := by
  have h7 : t.val % 8 = 7 := (flush0_5 t).mp hf
  show (cfg0.win 5).cut (grid0.coords t) ((dats m 0 c).after 5 t) = _
  rw [after0_5]
  funext y
  obtain ⟨p, q, rfl⟩ : ∃ (p : Fin 512) (q : Fin 2048), y = ix2 p q := ⟨y 0, y 1, eq_ix2 y⟩
  have hx : (cfg0.win 5).xinj (grid0.coords t) (ix2 p q) = ix2 p q :=
    funext fun a => match a with | ⟨0, _⟩ => rfl | ⟨1, _⟩ => rfl
  show outAt m c t.val t.isLt ((cfg0.win 5).xinj (grid0.coords t) (ix2 p q)) = _
  rw [hx]
  refine (out_last m c t h7 p q).trans ?_
  exact (blk5_read t (result m c) p q).symm

/-- The result array after the run. -/
theorem final : (dats m 0 c).arrAt 5 cfg0.N = result m c :=
  (dats m 0 c).arrAt_eq_of_cover 5 (result m c) (flushed_eq m c) cover5

/-- The idealized kernel's run with its result named: every weakly fair execution terminates without a fault,
    the result array at the reconstruction of the argument arrays, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KValue

end
-- ==== Proof.RefG.lean ====
/-
  The reference program computes the function G of the specification.

  Reading the reference one operation at a time at an index (r, c): the outer sum runs over the hidden units k,
  each summand is the masked hidden activation at (r, k) times W_dec at (c, k) (the transposed operand read back),
  and b_dec at c is added.  The hidden activation is max(pre, 0) with pre the inner sum over d of
  (x r d - b_dec d) * W_enc k d plus b_enc k.  The mask is the indicator of (hidden > -1) converted to a float;
  since max(h, 0) >= 0 > -1 the indicator is 1 and multiplying by it changes nothing.
-/
import proofs.«127214_g47287589929625_cont_8to1_c_1111_23_alg».proof.Proof.Spec
import proofs.«127214_g47287589929625_cont_8to1_c_1111_23_alg».proof.Proof.Gen.ReferenceIdeal.Read

noncomputable section

open scoped BigOperators

namespace Cert.ReferenceIdeal.RefG

open Cert.ReferenceIdeal Cert.ReferenceIdeal.Gen Cert.ReferenceIdeal.Read Idealize.ShloMosaic Idealize.ShloMosaic.ValueIdx

/-- The f32 pattern 0xBF800000 denotes -1. -/
theorem ofBits_neg_one : Ideal.ofBits .f32 0xBF800000#32 = (-1 : EReal) := by
  simp [Ideal.ofBits, Ideal.ieee, -EReal.coe_mul]; norm_num

/-- A value cut off below at 0 exceeds -1, so the indicator of (value > -1), as a float, is 1 and the product
    with it is the value itself. -/
theorem mask_one (h : Ideal .f32) :
    FloatOps.mulf (max h 0) (FloatOps.uitofp (F := Ideal) .f32 (FloatOps.cmpf .ogt (max h 0) (FloatOps.ofBits (F := Ideal) .f32 0xBF800000#32))) = max h 0 := by
  have hlt : (Ideal.ofBits .f32 0xBF800000#32 : EReal) < max h 0 := by
    rw [ofBits_neg_one]
    exact lt_of_lt_of_le (by norm_num) (le_max_right h 0)
  have h1 : FloatOps.uitofp (F := Ideal) .f32 (BitVec.ofBool true) = (1 : EReal) := by
    show (((BitVec.ofBool true).toNat : ℝ) : EReal) = 1
    simp
  rw [Ideal.mulf_def, Ideal.ofBits_def, Ideal.cmpf_def]
  simp only [Ideal.cmp, hlt, decide_true]
  rw [h1, mul_one]

/-! The index functions of the generated reading lemmas, at an index given by its coordinates. -/

theorem lidx4 (r : Fin 8192) (k : Fin 16384) (d : Fin 2048) : lidx_main_v4 (ix2 r k) d = ix2 r d :=
  funext fun a => Fin.ext (by match a with | ⟨0, _⟩ => rfl | ⟨1, _⟩ => rfl)

theorem ridx4 (r : Fin 8192) (k : Fin 16384) (d : Fin 2048) : ridx_main_v4 (ix2 r k) d = ix2 d k :=
  funext fun a => Fin.ext (by match a with | ⟨0, _⟩ => rfl | ⟨1, _⟩ => rfl)

theorem idx3 (d : Fin 2048) (k : Fin 16384) : idx_main_v3 (ix2 d k) = ix2 k d :=
  funext fun a => Fin.ext (by match a with | ⟨0, _⟩ => rfl | ⟨1, _⟩ => rfl)

theorem idx01 (r : Fin 8192) (d : Fin 2048) : idx_main_v0 (idx_main_v1 (ix2 r d)) = ix1 d :=
  funext fun a => Fin.ext (by match a with | ⟨0, _⟩ => rfl)

theorem idx56 (r : Fin 8192) (k : Fin 16384) : idx_main_v5 (idx_main_v6 (ix2 r k)) = ix1 k :=
  funext fun a => Fin.ext (by match a with | ⟨0, _⟩ => rfl)

theorem lidx14 (r : Fin 8192) (c : Fin 2048) (k : Fin 16384) : lidx_main_v14 (ix2 r c) k = ix2 r k :=
  funext fun a => Fin.ext (by match a with | ⟨0, _⟩ => rfl | ⟨1, _⟩ => rfl)

theorem ridx14 (r : Fin 8192) (c : Fin 2048) (k : Fin 16384) : ridx_main_v14 (ix2 r c) k = ix2 k c :=
  funext fun a => Fin.ext (by match a with | ⟨0, _⟩ => rfl | ⟨1, _⟩ => rfl)

theorem idx13 (k : Fin 16384) (c : Fin 2048) : idx_main_v13 (ix2 k c) = ix2 c k :=
  funext fun a => Fin.ext (by match a with | ⟨0, _⟩ => rfl | ⟨1, _⟩ => rfl)

theorem idx1516 (r : Fin 8192) (c : Fin 2048) : idx_main_v15 (idx_main_v16 (ix2 r c)) = ix1 c :=
  funext fun a => Fin.ext (by match a with | ⟨0, _⟩ => rfl)

section Stages

variable (x0 : (⟨S8192x2048, .f32⟩ : BufTy).Contents (Elt Ideal)) (x1 : (⟨S16384x2048, .f32⟩ : BufTy).Contents (Elt Ideal)) (x2 : (⟨S16384, .f32⟩ : BufTy).Contents (Elt Ideal)) (x3 : (⟨S2048x16384, .f32⟩ : BufTy).Contents (Elt Ideal)) (x4 : (⟨S2048, .f32⟩ : BufTy).Contents (Elt Ideal))

/-- The encoder's output after the cut-off at 0 is the hidden activation. -/
theorem v8_eq (r : Fin 8192) (k : Fin 16384) :
    val_main_v8 (F := Ideal) x0 x1 x2 x4 (ix2 r k) = Cert.Sae.hid x0 x1 x2 x4 r k := by
  rw [val_main_v8_apply, val_main_v7_apply, val_main_v4_apply, val_main_v6_apply, val_main_v5_apply,
    val_main_call0_v0_apply, val_main_call0_cst_apply, idx56]
  rw [Ideal.maximumf_def, Ideal.addf_def, Ideal.ofBits_def, Ideal.ofBits_zero_f32]
  unfold Cert.Sae.hid Cert.Sae.pre
  congr 2
  refine Finset.sum_congr rfl fun d _ => ?_
  rw [lidx4, ridx4, val_main_v2_apply, val_main_v1_apply, val_main_v0_apply, val_main_v3_apply, idx01, idx3,
    Ideal.subf_def]

/-- The masked hidden activation is the hidden activation. -/
theorem v12_eq (r : Fin 8192) (k : Fin 16384) :
    val_main_v12 (F := Ideal) x0 x1 x2 x4 (ix2 r k) = Cert.Sae.hid x0 x1 x2 x4 r k := by
  rw [val_main_v12_apply, val_main_v11_apply, val_main_v10_apply, val_main_v9_apply, val_main_cst_apply, v8_eq]
  exact mask_one (Cert.Sae.pre x0 x1 x2 x4 r k)

end Stages

/-- The reference's result array is G. -/
theorem ref_eq (x0 : (⟨S8192x2048, .f32⟩ : BufTy).Contents (Elt Ideal)) (x1 : (⟨S16384x2048, .f32⟩ : BufTy).Contents (Elt Ideal)) (x2 : (⟨S16384, .f32⟩ : BufTy).Contents (Elt Ideal)) (x3 : (⟨S2048x16384, .f32⟩ : BufTy).Contents (Elt Ideal)) (x4 : (⟨S2048, .f32⟩ : BufTy).Contents (Elt Ideal)) :
    Read.val_main_v17 (F := Ideal) x0 x1 x2 x3 x4 = Cert.Sae.G x0 x1 x2 x3 x4 := by
  funext i
  obtain ⟨r, c, rfl⟩ : ∃ (r : Fin 8192) (c : Fin 2048), i = ix2 r c := ⟨i 0, i 1, eq_ix2 i⟩
  rw [Cert.Sae.G_ix2]
  rw [val_main_v17_apply, val_main_v14_apply, val_main_v16_apply, val_main_v15_apply, idx1516, Ideal.addf_def]
  have hs : (∑ k : Fin 16384, val_main_v12 (F := Ideal) x0 x1 x2 x4 (lidx_main_v14 (ix2 r c) k)
        * val_main_v13 (F := Ideal) x3 (ridx_main_v14 (ix2 r c) k))
      = ∑ k : Fin 16384, Cert.Sae.hid x0 x1 x2 x4 r k * x3 (ix2 c k) :=
    Finset.sum_congr rfl fun k _ => by rw [lidx14, ridx14, val_main_v13_apply, idx13, v12_eq]
  rw [hs]
  unfold Cert.Sae.out
  exact Eq.refl _

end Cert.ReferenceIdeal.RefG

end
-- ==== Proof.lean ====
/-
  A sparse-autoencoder forward pass, fused into one kernel, against its two-matmul reference.

  Both programs compute, for x : [8192, 2048], W_enc : [16384, 2048], b_enc : [16384], W_dec : [2048, 16384],
  b_dec : [2048], the reconstruction

      out r c = (sum over k of max (sum over d of (x r d - b_dec d) * W_enc k d + b_enc k) 0 * W_dec c k) + b_dec c.

  The reference multiplies the hidden activation by the indicator that it exceeds -1; a maximum with 0 is never
  below 0, so the indicator is 1.  The kernel walks a 16 × 8 grid (row tiles of 512 rows, chunks of 2048 hidden units):
  at a tile's first chunk it keeps the centred rows in a scratch buffer and starts the output block at that chunk's
  partial sum plus b_dec; at each later chunk it adds the chunk's partial sum; the block is written back after the
  eighth.  On the extended reals addition is commutative and associative, so the eight partial sums added onto
  b_dec are the single sum over all 16384 hidden units plus b_dec, and the changes of float format are the
  identity: no finiteness of the inputs is used.

  The frames of the two kernel programs come from running the body at a generic grid point in its two control
  cases (first chunk; later chunk) with the scratch's contents tracked from point to point; the reference's frame
  is its run with the result dropped; the idealization rewrote nothing.
-/
import proofs.«127214_g47287589929625_cont_8to1_c_1111_23_alg».proof.Defs
import proofs.«127214_g47287589929625_cont_8to1_c_1111_23_alg».proof.Proof.Gen.Kernel
import proofs.«127214_g47287589929625_cont_8to1_c_1111_23_alg».proof.Proof.Gen.KernelIdeal
import proofs.«127214_g47287589929625_cont_8to1_c_1111_23_alg».proof.Proof.Gen.ReferenceIdeal
import proofs.«127214_g47287589929625_cont_8to1_c_1111_23_alg».proof.Proof.Gen.ReferenceIdeal.Run
import proofs.«127214_g47287589929625_cont_8to1_c_1111_23_alg».proof.Proof.Gen.ReferenceIdeal.Read
import proofs.«127214_g47287589929625_cont_8to1_c_1111_23_alg».proof.Proof.Gen.Pre_finite_inputs
import proofs.«127214_g47287589929625_cont_8to1_c_1111_23_alg».proof.Proof.KernelBody
import proofs.«127214_g47287589929625_cont_8to1_c_1111_23_alg».proof.Proof.KernelIdealBody
import proofs.«127214_g47287589929625_cont_8to1_c_1111_23_alg».proof.Proof.KValue
import proofs.«127214_g47287589929625_cont_8to1_c_1111_23_alg».proof.Proof.RefG
import Idealize.ShloMosaic.Adequacy
import Idealize.ShloMosaic.Init

noncomputable section

namespace Cert.Proof

open Idealize.ShloMosaic Idealize.SL.Sem

/-- The kernel as printed runs to the end and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the reconstruction `Sae.G` of the
    arguments in their result arrays. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _ _ _ _).trans ?_
  rw [Cert.ReferenceIdeal.RefG.ref_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
